-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1600x1x1 : Shape := ⟨4, ![4096, 1600, 1, 1]⟩
abbrev S64x16x1600 : Shape := ⟨3, ![64, 16, 1600]⟩
abbrev S8192x1600 : Shape := ⟨2, ![8192, 1600]⟩
abbrev S8192x64 : Shape := ⟨2, ![8192, 64]⟩
abbrev S_ : Shape := ⟨0, ![]⟩

class Facts : Prop where
  bcast_S_S4096x1600x1x1 : S_.BroadcastsInDim S4096x1600x1x1 (![] : Fin 0 → Fin S4096x1600x1x1.rank)
  reducesTo_S4096x1600x1x1_S_d0_1_2_3 : S4096x1600x1x1.ReducesTo [0, 1, 2, 3] S_
  h_S_ : 0 < S_.numel
  bcast_S_S64x16x1600 : S_.BroadcastsInDim S64x16x1600 (![] : Fin 0 → Fin S64x16x1600.rank)
  reducesTo_S64x16x1600_S_d0_1_2 : S64x16x1600.ReducesTo [0, 1, 2] S_
  bcast_S_S8192x1600 : S_.BroadcastsInDim S8192x1600 (![] : Fin 0 → Fin S8192x1600.rank)
  reducesTo_S8192x1600_S_d0_1 : S8192x1600.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  main_v18

def fn {F : FTy → Type} [FloatOps F] (main_arg0 : FVec F S4096x1600x1x1 .f32) (main_arg1 : FVec F S64x16x1600 .f32) (main_arg2 : FVec F S8192x1600 .f32) (main_arg3 : FVec F S8192x64 .f32) : IVec S_ 1 :=
  let main_v0 : FVec F S4096x1600x1x1 .f32 := Host.absf main_arg0
  let main_cst : FVec F S_ .f32 := constant S_ .f32 0x7F800000#32
  let main_v1 : FVec F S4096x1600x1x1 .f32 := broadcastInDim S4096x1600x1x1 ![] bcast_S_S4096x1600x1x1 main_cst
  let main_v2 : IVec S4096x1600x1x1 1 := cmpf .olt main_v0 main_v1
  let main_c : IVec S_ 1 := constantI S_ 1 1#1
  let main_v3 : IVec S_ 1 := (fun x v => Host.reduce IntOp.andi x v reducesTo_S4096x1600x1x1_S_d0_1_2_3 h_S_) main_v2 main_c
  let main_v4 : FVec F S64x16x1600 .f32 := Host.absf main_arg1
  let main_cst_0 : FVec F S_ .f32 := constant S_ .f32 0x7F800000#32
  let main_v5 : FVec F S64x16x1600 .f32 := broadcastInDim S64x16x1600 ![] bcast_S_S64x16x1600 main_cst_0
  let main_v6 : IVec S64x16x1600 1 := cmpf .olt main_v4 main_v5
  let main_c_1 : IVec S_ 1 := constantI S_ 1 1#1
  let main_v7 : IVec S_ 1 := (fun x v => Host.reduce IntOp.andi x v reducesTo_S64x16x1600_S_d0_1_2 h_S_) main_v6 main_c_1
  let main_v8 : IVec S_ 1 := andi main_v3 main_v7
  let main_v9 : FVec F S8192x1600 .f32 := Host.absf main_arg2
  let main_cst_2 : FVec F S_ .f32 := constant S_ .f32 0x7F800000#32
  let main_v10 : FVec F S8192x1600 .f32 := broadcastInDim S8192x1600 ![] bcast_S_S8192x1600 main_cst_2
  let main_v11 : IVec S8192x1600 1 := cmpf .olt main_v9 main_v10
  let main_c_3 : IVec S_ 1 := constantI S_ 1 1#1
  let main_v12 : IVec S_ 1 := (fun x v => Host.reduce IntOp.andi x v reducesTo_S8192x1600_S_d0_1 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_v13 main_v16
-- ==== Kernel.lean ====
abbrev S4096x1600x1x1 : Shape := ⟨4, ![4096, 1600, 1, 1]⟩
abbrev S64x16x1600 : Shape := ⟨3, ![64, 16, 1600]⟩
abbrev S8192x1600 : Shape := ⟨2, ![8192, 1600]⟩
abbrev S8192x64 : Shape := ⟨2, ![8192, 64]⟩
abbrev S4096x1600 : Shape := ⟨2, ![4096, 1600]⟩
abbrev S2x64x1600 : Shape := ⟨3, ![2, 64, 1600]⟩
abbrev S2x1x64 : Shape := ⟨3, ![2, 1, 64]⟩
abbrev S1024x1600 : Shape := ⟨2, ![1024, 1600]⟩
abbrev S1024x64 : Shape := ⟨2, ![1024, 64]⟩
abbrev S1x64x1600 : Shape := ⟨3, ![1, 64, 1600]⟩
abbrev S1x1x64 : Shape := ⟨3, ![1, 1, 64]⟩
abbrev S64x1600 : Shape := ⟨2, ![64, 1600]⟩
abbrev S1x64 : Shape := ⟨2, ![1, 64]⟩
abbrev S64 : Shape := ⟨1, ![64]⟩
abbrev S_ : Shape := ⟨0, ![]⟩
abbrev S64x1 : Shape := ⟨2, ![64, 1]⟩
abbrev S4096x64 : Shape := ⟨2, ![4096, 64]⟩
abbrev S1024 : Shape := ⟨1, ![1024]⟩
abbrev S1024x1 : Shape := ⟨2, ![1024, 1]⟩

abbrev nBuf : Space → Nat
  | .hbm => 22
  | .vmem => 13
  | .smem => 0
  | _ => 0

abbrev bufTy : (tb : Table) → Fin (tcTables nBuf tb) → BufTy
  | .hbm, ⟨0, _⟩ => ⟨S4096x1600x1x1, .f32⟩
  | .hbm, ⟨1, _⟩ => ⟨S64x16x1600, .f32⟩
  | .hbm, ⟨2, _⟩ => ⟨S8192x1600, .f32⟩
  | .hbm, ⟨3, _⟩ => ⟨S8192x64, .f32⟩
  | .hbm, ⟨4, _⟩ => ⟨S4096x1600, .f32⟩
  | .hbm, ⟨5, _⟩ => ⟨S2x64x1600, .f32⟩
  | .hbm, ⟨6, _⟩ => ⟨S2x1x64, .f32⟩
  | .hbm, ⟨7, _⟩ => ⟨S_, .f32⟩
  | .hbm, ⟨8, _⟩ => ⟨S64x1600, .f32⟩
  | .hbm, ⟨9, _⟩ => ⟨S_, .f32⟩
  | .hbm, ⟨10, _⟩ => ⟨S1x64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64x1600, .f32⟩
  | .hbm, ⟨17, _⟩ => ⟨S64x1600, .f32⟩
  | .hbm, ⟨18, _⟩ => ⟨S64x1, .f32⟩
  | .hbm, ⟨19, _⟩ => ⟨S64x1600, .f32⟩
  | .hbm, ⟨20, _⟩ => ⟨S64x1600, .f32⟩
  | .hbm, ⟨21, _⟩ => ⟨S4096x64, .f32⟩
  | .local _ .vmem, ⟨0, _⟩ => ⟨S1024x1600, .f32⟩
  | .local _ .vmem, ⟨1, _⟩ => ⟨S1024x1600, .f32⟩
  | .local _ .vmem, ⟨2, _⟩ => ⟨S1024x64, .f32⟩
  | .local _ .vmem, ⟨3, _⟩ => ⟨S1024x64, .f32⟩
  | .local _ .vmem, ⟨4, _⟩ => ⟨S1x64x1600, .f32⟩
  | .local _ .vmem, ⟨5, _⟩ => ⟨S1x64x1600, .f32⟩
  | .local _ .vmem, ⟨6, _⟩ => ⟨S1x1x64, .f32⟩
  | .local _ .vmem, ⟨7, _⟩ => ⟨S1x1x64, .f32⟩
  | .local _ .vmem, ⟨8, _⟩ => ⟨S1024x1600, .f32⟩
  | .local _ .vmem, ⟨9, _⟩ => ⟨S1024x1600, .f32⟩
  | .local _ .vmem, ⟨10, _⟩ => ⟨S64x1600, .f32⟩
  | .local _ .vmem, ⟨11, _⟩ => ⟨S1024x64, .f32⟩
  | .local _ .vmem, ⟨12, _⟩ => ⟨S1024x64, .f32⟩
  | _, _ => ⟨S4096x1600x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1600 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4096x1600x1x1_S4096x1600 : S4096x1600x1x1.ShapeCasts S4096x1600
  inb_S1x64x1600_S1x64x1600_0_0_0 : ∀ a, (![0, 0, 0] : Fin 3 → Nat) a + S1x64x1600.size a ≤ S1x64x1600.size a
  h_S1x64x1600 : 0 < S1x64x1600.numel
  shapeCasts_S1x64x1600_S64x1600 : S1x64x1600.ShapeCasts S64x1600
  shapeCasts_S64x1600_S1x64x1600 : S64x1600.ShapeCasts S1x64x1600
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1024x1600_S1024x1600_0_0 : ∀ a, (![0, 0] : Fin 2 → Nat) a + S1024x1600.size a ≤ S1024x1600.size a
  h_S1024x1600 : 0 < S1024x1600.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  reduces_S1024x64_S64 : S1024x64.Reduces [0] S64
  shapeCasts_S64_S1x64 : S64.ShapeCasts S1x64
  reducesTo_S2x64x1600_S64x1600_d0 : S2x64x1600.ReducesTo [0] S64x1600
  h_S_ : 0 < S_.numel
  reducesTo_S2x1x64_S1x64_d0 : S2x1x64.ReducesTo [0] S1x64
  shapeCasts_S1x64_S64 : S1x64.ShapeCasts S64
  bcast_S_S64 : S_.BroadcastsInDim S64 (![] : Fin 0 → Fin S64.rank)
  reducesTo_S64x16x1600_S64x1600_d1 : S64x16x1600.ReducesTo [1] S64x1600
  bcast_S64_S64x1_0 : S64.BroadcastsInDim S64x1 (![0] : Fin 1 → Fin S64x1.rank)
  bcast_S64x1_S64x1600_0_1 : S64x1.BroadcastsInDim S64x1600 (![0, 1] : Fin 2 → Fin S64x1600.rank)
  shapeCasts_S1024x1600_S1024x1600 : S1024x1600.ShapeCasts S1024x1600
  inb_S64x1600_S64x1600_0_0 : ∀ a, (![0, 0] : Fin 2 → Nat) a + S64x1600.size a ≤ S64x1600.size a
  h_S64x1600 : 0 < S64x1600.numel
  shapeCasts_S64x1600_S64x1600 : S64x1600.ShapeCasts S64x1600
  reduces_S1024x1600_S1024 : S1024x1600.Reduces [1] S1024
  shapeCasts_S1024_S1024x1 : S1024.ShapeCasts S1024x1
  reduces_S64x1600_S64 : S64x1600.Reduces [1] S64
  shapeCasts_S64_S64x1 : S64.ShapeCasts S64x1
  transposes_S64x1_p1_0_S1x64 : S64x1.Transposes [1, 0] S1x64
  broadcasts_S1024x1_S1024x64 : S1024x1.Broadcasts S1024x64
  broadcasts_S1x64_S1024x64 : S1x64.Broadcasts S1024x64
  dot_S1024x64_S1024x1600_S64x1600_0_0_1_1_n_n_wf : DotDims.WF S1024x64 S1024x1600 S64x1600 [0] [0] [1] [1] [] []
  dot_S1024x1600_S64x1600_S1024x64_1_1_0_0_n_n_wf : DotDims.WF S1024x1600 S64x1600 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1600.size a ≤ S8192x1600.size a
  hwx0_0 : ∀ i : grid0.Coords, EltTy.bits .f32 = 32 ∨ (Rect.block (s := S8192x1600) S1024x1600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1600.size a ≤ S2x64x1600.size a
  hwx0_2 : ∀ i : grid0.Coords, EltTy.bits .f32 = 32 ∨ (Rect.block (s := S2x64x1600) S1x64x1600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1600.size a ≤ S4096x1600.size a
  hwx1_0 : ∀ i : grid1.Coords, EltTy.bits .f32 = 32 ∨ (Rect.block (s := S4096x1600) S1024x1600.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1600.size a ≤ S64x1600.size a
  hwx1_1 : ∀ i : grid1.Coords, EltTy.bits .f32 = 32 ∨ (Rect.block (s := S64x1600) S64x1600.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)

variable [Facts₀]

def dot_S1024x64_S1024x1600_S64x1600_0_0_1_1_n_n : DotDims S1024x64 S1024x1600 S64x1600 where
  lhsContracting := [0]
  rhsContracting := [0]
  lhsNonContracting := [1]
  rhsNonContracting := [1]
  lhsBatch := []
  rhsBatch := []
  wf := dot_S1024x64_S1024x1600_S64x1600_0_0_1_1_n_n_wf
def dot_S1024x1600_S64x1600_S1024x64_1_1_0_0_n_n : DotDims S1024x1600 S64x1600 S1024x64 where
  lhsContracting := [1]
  rhsContracting := [1]
  lhsNonContracting := [0]
  rhsNonContracting := [0]
  lhsBatch := []
  rhsBatch := []
  wf := dot_S1024x1600_S64x1600_S1024x64_1_1_0_0_n_n_wf

abbrev win0_0 : Pipeline.Window sig grid0 :=
  Pipeline.Window.ofSpec (Memref.whole main_arg2) S1024x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x1600.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S64x1600.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1600x1x1 : Shape := ⟨4, ![4096, 1600, 1, 1]⟩
abbrev S64x16x1600 : Shape := ⟨3, ![64, 16, 1600]⟩
abbrev S8192x1600 : Shape := ⟨2, ![8192, 1600]⟩
abbrev S8192x64 : Shape := ⟨2, ![8192, 64]⟩
abbrev S4096x1600 : Shape := ⟨2, ![4096, 1600]⟩
abbrev S64x1600 : Shape := ⟨2, ![64, 1600]⟩
abbrev S_ : Shape := ⟨0, ![]⟩
abbrev S64 : Shape := ⟨1, ![64]⟩
abbrev S64x1 : Shape := ⟨2, ![64, 1]⟩
abbrev S4096 : Shape := ⟨1, ![4096]⟩
abbrev S1600x64 : Shape := ⟨2, ![1600, 64]⟩
abbrev S4096x64 : Shape := ⟨2, ![4096, 64]⟩
abbrev S4096x1 : Shape := ⟨2, ![4096, 1]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x1600x1x1, .f32⟩
  | .hbm, ⟨1, _⟩ => ⟨S64x16x1600, .f32⟩
  | .hbm, ⟨2, _⟩ => ⟨S8192x1600, .f32⟩
  | .hbm, ⟨3, _⟩ => ⟨S8192x64, .f32⟩
  | .hbm, ⟨4, _⟩ => ⟨S4096x1600, .f32⟩
  | .hbm, ⟨5, _⟩ => ⟨S64x1600, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64x1600, .f32⟩
  | .hbm, ⟨13, _⟩ => ⟨S64x1600, .f32⟩
  | .hbm, ⟨14, _⟩ => ⟨S64x1, .f32⟩
  | .hbm, ⟨15, _⟩ => ⟨S64x1600, .f32⟩
  | .hbm, ⟨16, _⟩ => ⟨S64x1600, .f32⟩
  | .hbm, ⟨17, _⟩ => ⟨S4096x1600, .f32⟩
  | .hbm, ⟨18, _⟩ => ⟨S_, .f32⟩
  | .hbm, ⟨19, _⟩ => ⟨S4096, .f32⟩
  | .hbm, ⟨20, _⟩ => ⟨S64x1600, .f32⟩
  | .hbm, ⟨21, _⟩ => ⟨S_, .f32⟩
  | .hbm, ⟨22, _⟩ => ⟨S64, .f32⟩
  | .hbm, ⟨23, _⟩ => ⟨S1600x64, .f32⟩
  | .hbm, ⟨24, _⟩ => ⟨S4096x64, .f32⟩
  | .hbm, ⟨25, _⟩ => ⟨S4096x1, .f32⟩
  | .hbm, ⟨26, _⟩ => ⟨S1x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | _, _ => ⟨S4096x1600x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  shapeCasts_S4096x1600x1x1_S4096x1600 : S4096x1600x1x1.ShapeCasts S4096x1600
  reducesTo_S8192x64_S64_d0 : S8192x64.ReducesTo [0] S64
  h_S_ : 0 < S_.numel
  bcast_S_S64 : S_.BroadcastsInDim S64 (![] : Fin 0 → Fin S64.rank)
  reducesTo_S64x16x1600_S64x1600_d1 : S64x16x1600.ReducesTo [1] S64x1600
  bcast_S64_S64x1_0 : S64.BroadcastsInDim S64x1 (![0] : Fin 1 → Fin S64x1.rank)
  bcast_S64x1_S64x1600_0_1 : S64x1.BroadcastsInDim S64x1600 (![0, 1] : Fin 2 → Fin S64x1600.rank)
  reducesTo_S4096x1600_S4096_d1 : S4096x1600.ReducesTo [1] S4096
  reducesTo_S64x1600_S64_d1 : S64x1600.ReducesTo [1] S64
  transposes_S64x1600_S1600x64_1_0 : S64x1600.Transposes [1, 0] S1600x64
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  dot_S8192x64_S8192x1600_S64x1600_0_0_1_1_n_n_wf : DotDims.WF S8192x64 S8192x1600 S64x1600 [0] [0] [1] [1] [] []
  dot_S4096x1600_S1600x64_S4096x64_1_0_0_1_n_n_wf : DotDims.WF S4096x1600 S1600x64 S4096x64 [1] [0] [0] [1] [] []

variable [Facts₀]

def dot_S8192x64_S8192x1600_S64x1600_0_0_1_1_n_n : DotDims S8192x64 S8192x1600 S64x1600 where
  lhsContracting := [0]
  rhsContracting := [0]
  lhsNonContracting := [1]
  rhsNonContracting := [1]
  lhsBatch := []
  rhsBatch := []
  wf := dot_S8192x64_S8192x1600_S64x1600_0_0_1_1_n_n_wf
def dot_S4096x1600_S1600x64_S4096x64_1_0_0_1_n_n : DotDims S4096x1600 S1600x64 S4096x64 where
  lhsContracting := [1]
  rhsContracting := [0]
  lhsNonContracting := [0]
  rhsNonContracting := [1]
  lhsBatch := []
  rhsBatch := []
  wf := dot_S4096x1600_S1600x64_S4096x64_1_0_0_1_n_n_wf

class Facts : Prop extends Facts₀ where

variable [Facts]
-- ==== Proof.RunNamed.lean ====
/-
  The idealized kernel's run with its result named.

  @main is four segments: a reshape of the queries, the prototype-accumulating region, the host operations that
  turn the two partial sums into the prototype table, and the scoring region. Each segment leaves every unscoped
  buffer at a known contents, the last at `W4`. The run is the launch of those segments; its final state is read
  at every unscoped buffer, so the result array is what the scoring region's write-backs leave,
  `(dat1 (V3 m ρ) c).arrAt 2 cfg1.N`, and the four arguments are as launched.
-/
import proofs.«136503_j31937376813212_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at what the scoring
    region's write-backs leave and the arguments end as launched. -/
theorem run_named : θ_run defs (onTc (τ := τ) (main (F := F))) ⟨m, fun _ => 0, ρ⟩ (fun r => ∀ c : Dev nD,
      r.2.mem ((c.tc : Thread nD τ).loc main_v12) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v12 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Named

end
-- ==== Proof.ProtoCases.lean ====
/-
  The prototype-accumulating body, case by case, as values.

  At a grid point (p, i) the body holds a 1024-row tile of the unlabeled samples `x0` and of their class weights
  `x1`, and two running blocks: the weighted sum `xo2` ([1, 64, 1600]) and the weight sum `xo3` ([1, 1, 64]).
  When i = 0 it first overwrites both running blocks with zeros. Then it adds the tile's contribution to each:
  the new weighted sum is the running one plus the tile's weights transposed times the tile's samples, the new
  weight sum is the running one plus the tile's column sums. So at a first tile the blocks end at
  "zero + contribution", and at a later tile at "what the tile before left + contribution".
-/
import proofs.«136503_j31937376813212_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Proto.Cases

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: the weighted-sum block ends at the running block plus this tile's contribution. -/
theorem later_weighted (c : Dev nD) (i : grid0.Coords) (arg2 : Memref sig .tc .vmem S1024x1600 .f32) (harg2 : arg2.IsWhole) (arg3 : Memref sig .tc .vmem S1024x64 .f32) (harg3 : arg3.IsWhole) (arg4 : Memref sig .tc .vmem S1x64x1600 .f32) (harg4 : arg4.IsWhole) (arg5 : Memref sig .tc .vmem S1x1x64 .f32) (harg5 : arg5.IsWhole) (hc0 : ¬cond0_0 i)
    (x0 : Vec F S1024x1600 .f32) (x1 : Vec F S1024x64 .f32) (xo2 : Vec F S1x64x1600 .f32) (xo3 : Vec F S1x1x64 .f32) :
    out0_B_2 c i arg2 harg2 arg3 harg3 arg4 harg4 arg5 harg5 hc0 x0 x1 xo2 xo3 = k0_pay3 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread,
    View.ld_unit_zero (S := S1024x1600) hz2, View.ld_unit_zero (S := S1024x64) hz2, View.ld_unit_zero (S := S1x64x1600) hz3]

/-- A later tile: the weight-sum block ends at the running block plus this tile's column sums. -/
theorem later_weights (c : Dev nD) (i : grid0.Coords) (arg2 : Memref sig .tc .vmem S1024x1600 .f32) (harg2 : arg2.IsWhole) (arg3 : Memref sig .tc .vmem S1024x64 .f32) (harg3 : arg3.IsWhole) (arg4 : Memref sig .tc .vmem S1x64x1600 .f32) (harg4 : arg4.IsWhole) (arg5 : Memref sig .tc .vmem S1x1x64 .f32) (harg5 : arg5.IsWhole) (hc0 : ¬cond0_0 i)
    (x0 : Vec F S1024x1600 .f32) (x1 : Vec F S1024x64 .f32) (xo2 : Vec F S1x64x1600 .f32) (xo3 : Vec F S1x1x64 .f32) :
    out0_B_3 c i arg2 harg2 arg3 harg3 arg4 harg4 arg5 harg5 hc0 x0 x1 xo2 xo3 = k0_pay4 xo3 x1 := by
  unfold out0_B_3
  rw [View.read_writes_eq_canon _ _ _ (cover0_B_3 c i arg2 harg2 arg3 harg3 arg4 harg4 arg5 harg5 hc0 x0 x1 xo2 xo3)]
  unfold kernelRun0_B
  dsimp only
  rw [View.canon_unit_zero hz3]
  simp only [View.readAt_eq_ld, harg3.read_unread, harg5.read_unread,
    View.ld_unit_zero (S := S1024x64) hz2, View.ld_unit_zero (S := S1x1x64) hz3]

/-- A first tile: the weighted-sum block ends at the zero block plus this tile's contribution (the zero block is
    stored, read back, and added to). -/
theorem first_weighted (c : Dev nD) (i : grid0.Coords) (arg2 : Memref sig .tc .vmem S1024x1600 .f32) (harg2 : arg2.IsWhole) (arg3 : Memref sig .tc .vmem S1024x64 .f32) (harg3 : arg3.IsWhole) (arg4 : Memref sig .tc .vmem S1x64x1600 .f32) (harg4 : arg4.IsWhole) (arg5 : Memref sig .tc .vmem S1x1x64 .f32) (harg5 : arg5.IsWhole) (hc0 : cond0_0 i)
    (x0 : Vec F S1024x1600 .f32) (x1 : Vec F S1024x64 .f32) :
    out0_A_2 c i arg2 harg2 arg3 harg3 arg4 harg4 arg5 harg5 hc0 x0 x1 = k0_pay3 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x64x1600) hz3, View.readCov_unit_zero (S := S1x64x1600) _ hz3]
  simp only [View.readAt_eq_ld, harg2.read_unread, harg3.read_unread,
    View.ld_unit_zero (S := S1024x1600) hz2, View.ld_unit_zero (S := S1024x64) hz2, View.ld_unit_zero (S := S1x64x1600) hz3]

/-- A first tile: the weight-sum block ends at the zero row plus this tile's column sums. -/
theorem first_weights (c : Dev nD) (i : grid0.Coords) (arg2 : Memref sig .tc .vmem S1024x1600 .f32) (harg2 : arg2.IsWhole) (arg3 : Memref sig .tc .vmem S1024x64 .f32) (harg3 : arg3.IsWhole) (arg4 : Memref sig .tc .vmem S1x64x1600 .f32) (harg4 : arg4.IsWhole) (arg5 : Memref sig .tc .vmem S1x1x64 .f32) (harg5 : arg5.IsWhole) (hc0 : cond0_0 i)
    (x0 : Vec F S1024x1600 .f32) (x1 : Vec F S1024x64 .f32) :
    out0_A_3 c i arg2 harg2 arg3 harg3 arg4 harg4 arg5 harg5 hc0 x0 x1 = k0_pay4 (k0_pay2 (F := F)) x1 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x64) hz3, View.readCov_unit_zero (S := S1x1x64) _ hz3]
  simp only [View.readAt_eq_ld, harg3.read_unread,
    View.ld_unit_zero (S := S1024x64) hz2, View.ld_unit_zero (S := S1x1x64) hz3]

end Cert.Proto.Cases

end
-- ==== Proof.LibColsDot.lean ====
/-
  A matrix product contracted over the FIRST axis of both operands, read at an index, on the extended reals.

  For the dimension numbers `<[0], [0], [1], [1]>` with no batch axis (a `K×M` left operand and a `K×N` right operand,
  the first axis of each contracted: the product of the left operand's transpose with the right operand) the entry
  `(a, b)` of the product is `∑ k, l[k,a] · r[k,b]`. A `tpu.matmul` into a zero accumulator and the host's
  `dot_general` with these numbers both compute it at the exact instance; both are stated as equalities of whole
  arrays with one function, `colsByCols l r`, so that a product computed block of columns of the left operand by
  block and the same product computed at once are compared through one name.
-/
import Idealize.ShloMosaic.Lib.ValueIdx
import Idealize.ShloMosaic.PureOps.Ideal.Laws

noncomputable section

namespace Cert.Lib.ColsDot

open Idealize.ShloMosaic Idealize.ShloMosaic.ValueIdx

/-- `<[0], [0], [1], [1]>`: `K×M` by `K×N`, both contracted on their first axis. -/
def cols (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product of the transpose of a `K×M` array by a `K×N` array: entry `(a, b)` is `∑ k, l[k,a] · r[k,b]`. -/
def colsByCols {K M N : ℕ} (l : (⟨2, ![K, M]⟩ : Shape).Idx → EReal) (r : (⟨2, ![K, N]⟩ : Shape).Idx → EReal) :
    (⟨2, ![M, N]⟩ : Shape).Idx → EReal :=
  fun j => ∑ k : Fin K, l (ix2 k (j 0)) * r (ix2 k (j 1))

theorem colsByCols_apply {K M N : ℕ} (l : (⟨2, ![K, M]⟩ : Shape).Idx → EReal) (r : (⟨2, ![K, N]⟩ : Shape).Idx → EReal)
    (j : (⟨2, ![M, N]⟩ : Shape).Idx) : colsByCols l r j = ∑ k : Fin K, l (ix2 k (j 0)) * r (ix2 k (j 1)) := rfl

/-- The left operand's index at result index `j` and contraction position `q`: row the contraction position's one
    coordinate … -/
theorem lhsIdx_row {K M N : ℕ} (j : (⟨2, ![M, N]⟩ : Shape).Idx) (q : (cols K M N).contr.Idx) :
    ((cols K M N).lhsIdx j q 0).val = (q ⟨0, Nat.one_pos⟩).val :=
  (cols K M N).lhsIdx_val_of_single rfl j q
/-- … and column `j 0`. -/
theorem lhsIdx_col {K M N : ℕ} (j : (⟨2, ![M, N]⟩ : Shape).Idx) (q : (cols K M N).contr.Idx) :
    ((cols K M N).lhsIdx j q 1).val = (j 0).val := by
  unfold DotDims.lhsIdx
  rw [dif_neg (show ¬(1 : Fin (⟨2, ![K, M]⟩ : Shape).rank) ∈ (cols K M N).lhsBatch from List.not_mem_nil),
    dif_pos (show (1 : Fin (⟨2, ![K, M]⟩ : Shape).rank) ∈ (cols K M N).lhsNonContracting from List.mem_singleton.mpr rfl)]
  rfl
/-- The right operand's index: row the contraction position's one coordinate … -/
theorem rhsIdx_row {K M N : ℕ} (j : (⟨2, ![M, N]⟩ : Shape).Idx) (q : (cols K M N).contr.Idx) :
    ((cols K M N).rhsIdx j q 0).val = (q ⟨0, Nat.one_pos⟩).val :=
  (cols K M N).rhsIdx_val_of_single rfl j q
/-- … and column `j 1`. -/
theorem rhsIdx_col {K M N : ℕ} (j : (⟨2, ![M, N]⟩ : Shape).Idx) (q : (cols K M N).contr.Idx) :
    ((cols K M N).rhsIdx j q 1).val = (j 1).val := by
  unfold DotDims.rhsIdx
  rw [dif_neg (show ¬(1 : Fin (⟨2, ![K, N]⟩ : Shape).rank) ∈ (cols K M N).rhsBatch from List.not_mem_nil),
    dif_pos (show (1 : Fin (⟨2, ![K, N]⟩ : Shape).rank) ∈ (cols K M N).rhsNonContracting from List.mem_singleton.mpr rfl)]
  rfl

/-- The sum over the record's one-axis contraction shape, with the operands read at the record's operand indices, is
    the sum over `k < K` of `l[k,a] · r[k,b]`: the contraction index is its one coordinate, the left index at `(j, k)`
    is `(k, j 0)` and the right index is `(k, j 1)`. -/
theorem contr_sum {K M N : ℕ} (d : DotDims ⟨2, ![K, M]⟩ ⟨2, ![K, N]⟩ ⟨2, ![M, N]⟩) (hd : d = cols K M N)
    (l : (⟨2, ![K, M]⟩ : Shape).Idx → EReal) (r : (⟨2, ![K, N]⟩ : Shape).Idx → EReal) (j : (⟨2, ![M, N]⟩ : Shape).Idx) :
    ∑ q : d.contr.Idx, l (d.lhsIdx j q) * r (d.rhsIdx j q) = colsByCols l r j := by
  subst hd
  unfold colsByCols
  rw [← Equiv.sum_comp (contrEquiv1 (cols K M N) K rfl rfl).symm]
  refine Finset.sum_congr rfl fun k _ => ?_
  have hk := contrEquiv1_symm_val (cols K M N) K rfl rfl k
  have el : (cols K M N).lhsIdx j ((contrEquiv1 (cols K M N) K rfl rfl).symm k) = ix2 k (j 0) :=
    funext fun a => Fin.ext (by
      match a with
      | ⟨0, _⟩ => exact (lhsIdx_row j _).trans hk
      | ⟨1, _⟩ => exact lhsIdx_col j _)
  have er : (cols K M N).rhsIdx j ((contrEquiv1 (cols K M N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with these dimension numbers into the zero accumulator is the product, whatever the operands'
    float formats and the precision attribute. -/
theorem matmul_zero_eq {K M N : ℕ} {φ₁ φ₂ : FTy} (d : DotDims ⟨2, ![K, M]⟩ ⟨2, ![K, N]⟩ ⟨2, ![M, N]⟩)
    (hd : d = cols K M N) (prec : Option ContractPrecision)
    (l : FVec Ideal ⟨2, ![K, M]⟩ φ₁) (r : FVec Ideal ⟨2, ![K, N]⟩ φ₂) :
    FloatOps.matmul d prec l r (constant (F := Ideal) ⟨2, ![M, N]⟩ .f32 0x00000000#32) = colsByCols l r :=
  funext fun j => (Ideal.matmul_constant_zero_apply d prec l r j).trans (contr_sum d hd l r j)

/-- The host's `dot_general` with these dimension numbers is the product, whatever the precision and the schedule. -/
theorem dotGeneral_eq {K M N : ℕ} {φ₁ φ₂ : FTy} (d : DotDims ⟨2, ![K, M]⟩ ⟨2, ![K, N]⟩ ⟨2, ![M, N]⟩)
    (hd : d = cols K M N) (prec : Option ContractPrecision) (sched : HostSchedule)
    (l : FVec Ideal ⟨2, ![K, M]⟩ φ₁) (r : FVec Ideal ⟨2, ![K, N]⟩ φ₂) :
    FloatOps.dotGeneral d prec sched l r = colsByCols l r :=
  funext fun j => (Ideal.dotGeneral_apply d prec sched l r j).trans (contr_sum d hd l r j)

/-- Two such products agree at two indices when their operands agree along the two columns read there. In
    particular a block of columns of the left operand gives the corresponding block of rows of the product. -/
theorem colsByCols_congr {K M M' N N' : ℕ} (l : (⟨2, ![K, M]⟩ : Shape).Idx → EReal) (r : (⟨2, ![K, N]⟩ : Shape).Idx → EReal)
    (l' : (⟨2, ![K, M']⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 k (j' 0)) = l (ix2 k (j 0))) (hr : ∀ k : Fin K, r' (ix2 k (j' 1)) = r (ix2 k (j 1))) :
    colsByCols l' r' j' = colsByCols l r j := by
  unfold colsByCols
  exact Finset.sum_congr rfl fun k _ => by rw [hl k, hr k]

end Cert.Lib.ColsDot

end
-- ==== Proof.ProtoPayload.lean ====
/-
  The prototype-accumulating body's arithmetic, entry by entry, on the extended reals.

  With a tile of samples x0 ([1024, 1600]), of weights x1 ([1024, 64]) and running blocks xo:
    new weighted sum (·, c, d) = xo(0, c, d) + Σ_{k<1024} x1[k, c] · x0[k, d]
    new weight sum   (·, ·, c) = xo(0, 0, c) + Σ_{k<1024} x1[k, c]
  and the blocks a first tile starts from are zero everywhere. Rounding the operands to bf16 before the product is
  the identity on the extended reals, and the product into a zero accumulator is the plain sum of products.
-/
import proofs.«136503_j31937376813212_2_alg».proof.Proof.Gen.KernelIdeal.Frame
import Idealize.ShloMosaic.Lib.Pipeline.Value
import Idealize.ShloMosaic.Lib.ValueIdx
import Idealize.ShloMosaic.Lib.Tactic
import Idealize.ShloMosaic.Lib.ValueLayout
import Idealize.ShloMosaic.PureOps.Ideal.Laws
import proofs.«136503_j31937376813212_2_alg».proof.Proof.LibColsDot
set_option maxRecDepth 16384

noncomputable section

namespace Cert.Proto.Payload

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

open Cert.Lib.ColsDot

/-- The zero block a first tile stores over the weighted sum. -/
theorem zero_weighted (u : Fin 1) (c : Fin 64) (d : Fin 1600) : k0_pay1 (F := Ideal) (ix3 u c d) = 0 := by
  unfold k0_pay1
  refine (shapeCast_ab_1ab_apply _ _ u c d).trans ?_
  exact Ideal.ofBits_zero_f32

/-- The zero row a first tile stores over the weight sum. -/
theorem zero_weights (u v : Fin 1) (c : Fin 64) : k0_pay2 (F := Ideal) (ix3 u v c) = 0 := by
  unfold k0_pay2
  refine (shapeCast_ab_1ab_apply _ _ u v c).trans ?_
  exact Ideal.ofBits_zero_f32

/-- The printed dimension record of the tile product is the first-axis contraction of a [1024, 64] by a [1024, 1600]. -/
theorem dims_eq : dot_S1024x64_S1024x1600_S64x1600_0_0_1_1_n_n = cols 1024 64 1600 := rfl

/-- The weighted sum after a tile: the running entry plus the tile's weights-by-samples product at (c, d). -/
theorem weighted_apply (x0 : Vec Ideal S1024x1600 .f32) (x1 : Vec Ideal S1024x64 .f32) (xo : Vec Ideal S1x64x1600 .f32)
    (u : Fin 1) (c : Fin 64) (d : Fin 1600) :
    k0_pay3 x0 x1 xo (ix3 u c d) = xo (ix3 (0 : Fin 1) c d) + ∑ k : Fin 1024, x1 (ix2 k c) * x0 (ix2 k d) := by
  unfold k0_pay3
  refine (shapeCast_ab_1ab_apply _ _ u c d).trans ?_
  refine congrArg₂ (· + ·) (shapeCast_1ab_ab_apply xo _ c d) ?_
  exact congrFun (matmul_zero_eq _ dims_eq none
    (truncf .bf16 x1 bitsLt_bf16_f32 : FVec Ideal S1024x64 .bf16) (truncf .bf16 x0 bitsLt_bf16_f32 : FVec Ideal S1024x1600 .bf16)) (ix2 c d)

/-- A sum along the first axis of a [1024, 64] array, at column c, is the sum of that column's entries. -/
theorem colsum_apply (x : FVec Ideal S1024x64 .f32) (h : S1024x64.Reduces [0] S64)
    (hφ : FKind.Formats .f32) (hacc : (0x00000000#32 : BitVec 32) = 0x00000000#32) (c : Fin 64) :
    multiReduction .add [0] S64 x 0x00000000#32 h hφ hacc (ix1 c) = ∑ k : Fin 1024, x (ix2 k c) := by
  refine (Ideal.multiReduction_add_single x 0x00000000#32 h hφ hacc (ix1 c)).trans ?_
  refine Finset.sum_congr rfl fun k _ => congrArg x ?_
  funext a
  apply Fin.ext
  match a with
  | ⟨0, _⟩ => rfl
  | ⟨1, _⟩ => rfl

/-- The weight sum after a tile: the running entry plus the tile's column sum at c. -/
theorem weights_apply (xo : Vec Ideal S1x1x64 .f32) (x1 : Vec Ideal S1024x64 .f32) (u v : Fin 1) (c : Fin 64) :
    k0_pay4 xo x1 (ix3 u v c) = xo (ix3 (0 : Fin 1) (0 : Fin 1) c) + ∑ k : Fin 1024, x1 (ix2 k c) := by
  obtain rfl : v = 0 := Fin.ext (by omega)
  unfold k0_pay4
  refine (shapeCast_ab_1ab_apply _ _ u (0 : Fin 1) c).trans ?_
  refine congrArg₂ (· + ·) (shapeCast_1ab_ab_apply xo _ (0 : Fin 1) c) ?_
  refine (shapeCast_a_1a_apply _ _ (0 : Fin 1) c).trans ?_
  exact colsum_apply x1 _ _ _ c

end Cert.Proto.Payload

end
-- ==== Proof.ProtoValue.lean ====
/-
  What the prototype-accumulating region leaves in its two output arrays.

  The grid is 2 halves by 4 tiles, walked in row-major order, so point t works on tile t (rows 1024·t … 1024·t + 1023
  of the 8192 unlabeled samples and of their weights) and on block t / 4 of each output. A half's first tile resets
  the two running blocks and every tile adds its contribution, so after the half's last tile (t % 4 = 3, the only
  points whose blocks are written back) the blocks hold
      0 + Σ_{s<4} tile(4·(t/4) + s)
  where tile(n)(c, d) = Σ_{k<1024} w[1024n + k, c] · x3[1024n + k, d] for the weighted sum and
  tile(n)(c) = Σ_{k<1024} w[1024n + k, c] for the weight sum. The two halves' blocks tile the output arrays.
-/
import proofs.«136503_j31937376813212_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws
import proofs.«136503_j31937376813212_2_alg».proof.Proof.ProtoCases
import proofs.«136503_j31937376813212_2_alg».proof.Proof.ProtoPayload
set_option maxRecDepth 16384

noncomputable section

namespace Cert.Proto.Value

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

open Cert.Proto.Cases Cert.Proto.Payload
open Idealize.ShloMosaic.Pipeline (accAt eq_accAt_of_mod accAt_add_apply)

/-! ## The specification: a tile's contribution, and a half's total -/

/-- Row k of tile n among the 8192 rows. -/
abbrev tileRow (n : ℕ) (h : n < 8) (k : Fin 1024) : Fin 8192 := ⟨n * 1024 + k.val, by have := k.isLt; omega⟩

/-- Tile n's contribution to the weighted sum at (c, d); nothing past the eight tiles. -/
def tileWeighted (x3 : S8192x1600.Idx → EReal) (w : S8192x64.Idx → EReal) (n : ℕ) (c : Fin 64) (d : Fin 1600) : EReal :=
  if h : n < 8 then ∑ k : Fin 1024, w (ix2 (tileRow n h k) c) * x3 (ix2 (tileRow n h k) d) else 0

/-- Tile n's contribution to the weight sum at c. -/
def tileWeights (w : S8192x64.Idx → EReal) (n : ℕ) (c : Fin 64) : EReal :=
  if h : n < 8 then ∑ k : Fin 1024, w (ix2 (tileRow n h k) c) else 0

/-- Half p's weighted sum: zero plus its four tiles' contributions, in order. -/
def halfWeighted (x3 : S8192x1600.Idx → EReal) (w : S8192x64.Idx → EReal) : S2x64x1600.Idx → EReal := fun i =>
  0 + ∑ s ∈ Finset.range 4, tileWeighted x3 w (4 * (i 0).val + s) (i 1) (i 2)

/-- Half p's weight sum. -/
def halfWeights (w : S8192x64.Idx → EReal) : S2x1x64.Idx → EReal := fun i =>
  0 + ∑ s ∈ Finset.range 4, tileWeights w (4 * (i 0).val + s) (i 2)

variable (V : (c : Dev nD) → (b : Ref sig .tc) → Buf (Elt Ideal) ((c : Thread nD τ).loc b))

/-! ## The windows' blocks read at an index -/

/-- The samples' tile at point t, -/
abbrev samplesAt (c : Dev nD) (t : Fin cfg0.N) : Vec Ideal S1024x1600 .f32 := iblk0 V c 0 t
/-- and the weights' tile. -/
abbrev weightsAt (c : Dev nD) (t : Fin cfg0.N) : Vec Ideal S1024x64 .f32 := iblk0 V c 1 t

/-- The printed index maps, decided over the eight grid points: the input tiles advance with the point, the output
    blocks with the half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

theorem N8 : cfg0.N = 8 := N_0

/-- The samples' tile at point t, entry (k, d): row 1024·t + k of the samples. -/
theorem samples_apply (c : Dev nD) (t : Fin cfg0.N) (ht : t.val < 8) (k : Fin 1024) (d : Fin 1600) :
    samplesAt V c t (ix2 k d) = V c main_arg2 (ix2 (tileRow t.val ht k) d) := by
  unfold samplesAt iblk0
  rw [View.read_apply]
  show V c main_arg2 _ = V c main_arg2 _
  refine congrArg (V c main_arg2) ?_
  funext a; apply Fin.ext
  match a with
  | ⟨0, _⟩ => show win0_0.index t (0 : Fin 2) * 1024 + 1 * k.val = t.val * 1024 + k.val; rw [(idx_facts t).1]; omega
  | ⟨1, _⟩ => show win0_0.index t (1 : Fin 2) * 1600 + 1 * d.val = d.val; rw [(idx_facts t).2.1]; omega

/-- The weights' tile at point t, entry (k, c): row 1024·t + k of the weights. -/
theorem weights_blk_apply (c : Dev nD) (t : Fin cfg0.N) (ht : t.val < 8) (k : Fin 1024) (c' : Fin 64) :
    weightsAt V c t (ix2 k c') = V c main_arg3 (ix2 (tileRow t.val ht k) c') := by
  unfold weightsAt iblk0
  rw [View.read_apply]
  show V c main_arg3 _ = V c main_arg3 _
  refine congrArg (V c main_arg3) ?_
  funext a; apply Fin.ext
  match a with
  | ⟨0, _⟩ => show win0_1.index t (0 : Fin 2) * 1024 + 1 * k.val = t.val * 1024 + k.val; rw [(idx_facts t).2.2.1]; omega
  | ⟨1, _⟩ => show win0_1.index t (1 : Fin 2) * 64 + 1 * c'.val = c'.val; rw [(idx_facts t).2.2.2.1]; omega

/-! ## The weighted sum's running block is a fold -/

/-- The running weighted-sum block after point n, -/
def runW (c : Dev nD) : (n : ℕ) → n < cfg0.N → Vec Ideal S1x64x1600 .f32 := fun n h => (outsAt0 V c n h).1
/-- what a half's first tile leaves, -/
def resetW (c : Dev nD) : (n : ℕ) → n < cfg0.N → Vec Ideal S1x64x1600 .f32 := fun n h =>
  k0_pay3 (samplesAt V c ⟨n, h⟩) (weightsAt V c ⟨n, h⟩) (k0_pay1 (F := Ideal))
/-- and what a later tile makes of the block before it. -/
def stepW (c : Dev nD) : (n : ℕ) → n < cfg0.N → Vec Ideal S1x64x1600 .f32 → Vec Ideal S1x64x1600 .f32 := fun n h acc =>
  k0_pay3 (samplesAt V c ⟨n, h⟩) (weightsAt V c ⟨n, h⟩) acc

theorem runW_reset (c : Dev nD) (n : ℕ) (h : n < cfg0.N) (h0 : n % 4 = 0) : runW V c n h = resetW V c n h := by
  unfold runW resetW
  rw [outsAt0_A V c ⟨n, h⟩ h0]
  dsimp only
  exact first_weighted (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk0 V c 0 ⟨n, h⟩) (iblk0 V c 1 ⟨n, h⟩)

theorem runW_step (c : Dev nD) (n : ℕ) (h : n + 1 < cfg0.N) (hne : ¬(n + 1) % 4 = 0) :
    runW V c (n + 1) h = stepW V c (n + 1) h (runW V c n (Nat.lt_of_succ_lt h)) := by
  unfold runW stepW
  rw [outsAt0_B V c ⟨n + 1, h⟩ hne]
  dsimp only
  exact later_weighted (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hne ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2

/-- The tile's contribution as the fold's addend, on the block's index. -/
def addW (c : Dev nD) (n : ℕ) (y : S1x64x1600.Idx) : EReal :=
  tileWeighted (V c main_arg2) (V c main_arg3) n (y 1) (y 2)

theorem tile_sum (c : Dev nD) (n : ℕ) (h : n < cfg0.N) (c' : Fin 64) (d : Fin 1600) :
    ∑ k : Fin 1024, weightsAt V c ⟨n, h⟩ (ix2 k c') * samplesAt V c ⟨n, h⟩ (ix2 k d)
      = tileWeighted (V c main_arg2) (V c main_arg3) n c' d := by
  have h8 : n < 8 := lt_of_lt_of_eq h N8
  unfold tileWeighted
  rw [dif_pos h8]
  exact Finset.sum_congr rfl fun k _ => congrArg₂ (· * ·) (weights_blk_apply V c ⟨n, h⟩ h8 k c') (samples_apply V c ⟨n, h⟩ h8 k d)

theorem resetW_apply (c : Dev nD) (n : ℕ) (h : n < cfg0.N) (y : S1x64x1600.Idx) :
    resetW V c n h y = (fun _ => (0 : EReal)) y + addW V c n y := by
  obtain ⟨u, c', d, rfl⟩ : ∃ (u : Fin 1) (c' : Fin 64) (d : Fin 1600), y = ix3 u c' d := ⟨y 0, y 1, y 2, eq_ix3 y⟩
  unfold resetW addW
  refine (weighted_apply _ _ _ u c' d).trans ?_
  exact congrArg₂ (· + ·) (zero_weighted 0 c' d) (tile_sum V c n h c' d)

theorem stepW_apply (c : Dev nD) (n : ℕ) (h : n < cfg0.N) (acc : S1x64x1600.Idx → EReal) (y : S1x64x1600.Idx) :
    stepW V c n h acc y = acc y + addW V c n y := by
  obtain ⟨u, c', d, rfl⟩ : ∃ (u : Fin 1) (c' : Fin 64) (d : Fin 1600), y = ix3 u c' d := ⟨y 0, y 1, y 2, eq_ix3 y⟩
  obtain rfl : u = 0 := Subsingleton.elim _ _
  unfold stepW addW
  refine (weighted_apply _ _ acc 0 c' d).trans ?_
  exact congrArg (acc (ix3 0 c' d) + ·) (tile_sum V c n h c' d)

/-- After a half's last tile the weighted-sum block is zero plus the half's four tiles. -/
theorem weighted_run (c : Dev nD) (t : Fin cfg0.N) (h3 : t.val % 4 = 3) (y : S1x64x1600.Idx) :
    (outsAt0 V c t.val t.isLt).1 y = 0 + ∑ s ∈ Finset.range 4, addW V c (4 * (t.val / 4) + s) y := by
  have h' : 4 * (t.val / 4) + t.val % 4 < cfg0.N := by rw [Nat.div_add_mod]; exact t.isLt
  have e1 := eq_accAt_of_mod (runW V c) 4 (resetW V c) (stepW V c) (runW_reset V c) (runW_step V c) (by decide) t.val t.isLt h'
  have e2 := accAt_add_apply (resetW V c) (stepW V c) (fun _ => (0 : EReal)) (addW V c) (4 * (t.val / 4)) 3
    (fun h i => resetW_apply V c _ h i) (fun n h acc i _ _ => stepW_apply V c n h acc i) (t.val % 4) (by omega) h' y
  refine (congrFun e1 y).trans (e2.trans ?_)
  rw [h3]

/-! ## The weight sum's running block is a fold -/

def runS (c : Dev nD) : (n : ℕ) → n < cfg0.N → Vec Ideal S1x1x64 .f32 := fun n h => (outsAt0 V c n h).2
def resetS (c : Dev nD) : (n : ℕ) → n < cfg0.N → Vec Ideal S1x1x64 .f32 := fun n h =>
  k0_pay4 (k0_pay2 (F := Ideal)) (weightsAt V c ⟨n, h⟩)
def stepS (c : Dev nD) : (n : ℕ) → n < cfg0.N → Vec Ideal S1x1x64 .f32 → Vec Ideal S1x1x64 .f32 := fun n h acc =>
  k0_pay4 acc (weightsAt V c ⟨n, h⟩)

theorem runS_reset (c : Dev nD) (n : ℕ) (h : n < cfg0.N) (h0 : n % 4 = 0) : runS V c n h = resetS V c n h := by
  unfold runS resetS
  rw [outsAt0_A V c ⟨n, h⟩ h0]
  dsimp only
  exact first_weights (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk0 V c 0 ⟨n, h⟩) (iblk0 V c 1 ⟨n, h⟩)

theorem runS_step (c : Dev nD) (n : ℕ) (h : n + 1 < cfg0.N) (hne : ¬(n + 1) % 4 = 0) :
    runS V c (n + 1) h = stepS V c (n + 1) h (runS V c n (Nat.lt_of_succ_lt h)) := by
  unfold runS stepS
  rw [outsAt0_B V c ⟨n + 1, h⟩ hne]
  dsimp only
  exact later_weights (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hne ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2

def addS (c : Dev nD) (n : ℕ) (y : S1x1x64.Idx) : EReal := tileWeights (V c main_arg3) n (y 2)

theorem tile_colsum (c : Dev nD) (n : ℕ) (h : n < cfg0.N) (c' : Fin 64) :
    ∑ k : Fin 1024, weightsAt V c ⟨n, h⟩ (ix2 k c') = tileWeights (V c main_arg3) n c' := by
  have h8 : n < 8 := lt_of_lt_of_eq h N8
  unfold tileWeights
  rw [dif_pos h8]
  exact Finset.sum_congr rfl fun k _ => weights_blk_apply V c ⟨n, h⟩ h8 k c'

theorem resetS_apply (c : Dev nD) (n : ℕ) (h : n < cfg0.N) (y : S1x1x64.Idx) :
    resetS V c n h y = (fun _ => (0 : EReal)) y + addS V c n y := by
  obtain ⟨u, v, c', rfl⟩ : ∃ (u v : Fin 1) (c' : Fin 64), y = ix3 u v c' := ⟨y 0, y 1, y 2, eq_ix3 y⟩
  unfold resetS addS
  refine (weights_apply _ _ u v c').trans ?_
  exact congrArg₂ (· + ·) (zero_weights 0 0 c') (tile_colsum V c n h c')

theorem stepS_apply (c : Dev nD) (n : ℕ) (h : n < cfg0.N) (acc : S1x1x64.Idx → EReal) (y : S1x1x64.Idx) :
    stepS V c n h acc y = acc y + addS V c n y := by
  obtain ⟨u, v, c', rfl⟩ : ∃ (u v : Fin 1) (c' : Fin 64), y = ix3 u v c' := ⟨y 0, y 1, y 2, eq_ix3 y⟩
  obtain rfl : u = 0 := Subsingleton.elim _ _
  obtain rfl : v = 0 := Subsingleton.elim _ _
  unfold stepS addS
  refine (weights_apply acc _ 0 0 c').trans ?_
  exact congrArg (acc (ix3 0 0 c') + ·) (tile_colsum V c n h c')

/-- After a half's last tile the weight-sum block is zero plus the half's four tiles' column sums. -/
theorem weights_run (c : Dev nD) (t : Fin cfg0.N) (h3 : t.val % 4 = 3) (y : S1x1x64.Idx) :
    (outsAt0 V c t.val t.isLt).2 y = 0 + ∑ s ∈ Finset.range 4, addS V c (4 * (t.val / 4) + s) y := by
  have h' : 4 * (t.val / 4) + t.val % 4 < cfg0.N := by rw [Nat.div_add_mod]; exact t.isLt
  have e1 := eq_accAt_of_mod (runS V c) 4 (resetS V c) (stepS V c) (runS_reset V c) (runS_step V c) (by decide) t.val t.isLt h'
  have e2 := accAt_add_apply (resetS V c) (stepS V c) (fun _ => (0 : EReal)) (addS V c) (4 * (t.val / 4)) 3
    (fun h i => resetS_apply V c _ h i) (fun n h acc i _ _ => stepS_apply V c n h acc i) (t.val % 4) (by omega) h' y
  refine (congrFun e1 y).trans (e2.trans ?_)
  rw [h3]

end Cert.Proto.Value

end
-- ==== Proof.ProtoArrays.lean ====
/-
  The two arrays the prototype-accumulating region leaves: block p of each is half p's total.

  A block is written back only after its half's last tile; what is written is zero plus the half's four tiles
  (the running blocks' fold), which is the block's restriction of one whole-array function of the samples and the
  weights as the region finds them. Block p covers exactly the indices whose first coordinate is p, so the two
  written blocks tile each array.
-/
import proofs.«136503_j31937376813212_2_alg».proof.Proof.Gen.KernelIdeal.Frame
import Idealize.ShloMosaic.Lib.Pipeline.Value
import Idealize.ShloMosaic.Lib.ValueIdx
import Idealize.ShloMosaic.Lib.Tactic
import proofs.«136503_j31937376813212_2_alg».proof.Proof.ProtoValue
set_option maxRecDepth 16384

noncomputable section

namespace Cert.Proto.Arrays

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

open Cert.Proto.Value

variable (V : (c : Dev nD) → (b : Ref sig .tc) → Buf (Elt Ideal) ((c : Thread nD τ).loc b))

/-- What a half's last tile writes back of the weighted sum is its block of the halves' totals. -/
theorem flushed_weighted (c : Dev nD) (t : Fin cfg0.N) (hf : (cfg0.win 2).flush t = true) :
    (dat0 V c).flushed 2 t = ((cfg0.win 2).blk t).view.read (Elt Ideal) (halfWeighted (V c main_arg2) (V c main_arg3)) := by
  have h3 : t.val % 4 = 3 := (flush0_2 t).mp hf
  show (cfg0.win 2).cut (grid0.coords t) ((dat0 V c).after 2 t) = _
  rw [after0_2]
  obtain ⟨-, -, -, -, e4, e5, e6, -, -, -⟩ := idx_facts t
  funext y
  show (outsAt0 V c t.val t.isLt).1 y = halfWeighted (V c main_arg2) (V c main_arg3) (((cfg0.win 2).blk t).view.emb y)
  rw [weighted_run V c t h3 y]
  have hy0 : (y 0).val < 1 := (y 0).isLt
  have a0 : ((((cfg0.win 2).blk t).view.emb y) 0).val = t.val / 4 := by
    show win0_2.index t (0 : Fin 3) * 1 + 1 * (y 0).val = t.val / 4
    rw [e4]; omega
  have a1 : (((cfg0.win 2).blk t).view.emb y) 1 = y 1 := Fin.ext (by
    show win0_2.index t (1 : Fin 3) * 64 + 1 * (y 1).val = (y 1).val
    rw [e5]; omega)
  have a2 : (((cfg0.win 2).blk t).view.emb y) 2 = y 2 := Fin.ext (by
    show win0_2.index t (2 : Fin 3) * 1600 + 1 * (y 2).val = (y 2).val
    rw [e6]; omega)
  show 0 + ∑ s ∈ Finset.range 4, tileWeighted (V c main_arg2) (V c main_arg3) (4 * (t.val / 4) + s) (y 1) (y 2)
    = 0 + ∑ s ∈ Finset.range 4, tileWeighted (V c main_arg2) (V c main_arg3) (4 * ((((cfg0.win 2).blk t).view.emb y) 0).val + s)
        ((((cfg0.win 2).blk t).view.emb y) 1) ((((cfg0.win 2).blk t).view.emb y) 2)
  rw [a0, a1, a2]

/-- An index of the weighted-sum array is in point t's block iff each coordinate is in the block's range. -/
theorem mem_blk_weighted (t : Fin cfg0.N) (i : S2x64x1600.Idx) :
    i ∈ ((cfg0.win 2).blk t).view.set ↔ ∀ a : Fin 3, win0_2.index t a * S1x64x1600.size a ≤ (i a).val ∧ (i a).val < win0_2.index t a * S1x64x1600.size a + S1x64x1600.size a := by
  show i ∈ ((View.whole main_v1_0).slice (win0_2.rect t)).set ↔ _
  rw [View.set_slice_whole, Rect.mem_set_unit]
  exact Iff.rfl

/-- THE WEIGHTED-SUM ARRAY after the region: the halves' totals. -/
theorem final_weighted (c : Dev nD) : (dat0 V c).arrAt 2 cfg0.N = halfWeighted (V c main_arg2) (V c main_arg3) :=
  (dat0 V c).arrAt_eq_of_cover 2 _ (flushed_weighted V c) fun i => by
    have hi0 : (i 0).val < 2 := (i 0).isLt
    have hi1 : (i 1).val < 64 := (i 1).isLt
    have hi2 : (i 2).val < 1600 := (i 2).isLt
    have hN := N8
    refine ⟨⟨4 * (i 0).val + 3, by omega⟩, (flush0_2 _).mpr (by show (4 * (i 0).val + 3) % 4 = 3; omega), ?_⟩
    rw [mem_blk_weighted]
    obtain ⟨-, -, -, -, e4, e5, e6, -, -, -⟩ := idx_facts ⟨4 * (i 0).val + 3, by omega⟩
    intro a
    match a with
    | ⟨0, _⟩ => show win0_2.index _ (0 : Fin 3) * 1 ≤ (i 0).val ∧ (i 0).val < win0_2.index _ (0 : Fin 3) * 1 + 1; rw [e4]; dsimp only; omega
    | ⟨1, _⟩ => show win0_2.index _ (1 : Fin 3) * 64 ≤ (i 1).val ∧ (i 1).val < win0_2.index _ (1 : Fin 3) * 64 + 64; rw [e5]; omega
    | ⟨2, _⟩ => show win0_2.index _ (2 : Fin 3) * 1600 ≤ (i 2).val ∧ (i 2).val < win0_2.index _ (2 : Fin 3) * 1600 + 1600; rw [e6]; omega

/-- What a half's last tile writes back of the weight sum is its block of the halves' totals. -/
theorem flushed_weights (c : Dev nD) (t : Fin cfg0.N) (hf : (cfg0.win 3).flush t = true) :
    (dat0 V c).flushed 3 t = ((cfg0.win 3).blk t).view.read (Elt Ideal) (halfWeights (V c main_arg3)) := by
  have h3 : t.val % 4 = 3 := (flush0_3 t).mp hf
  show (cfg0.win 3).cut (grid0.coords t) ((dat0 V c).after 3 t) = _
  rw [after0_3]
  obtain ⟨-, -, -, -, -, -, -, e7, e8, e9⟩ := idx_facts t
  funext y
  show (outsAt0 V c t.val t.isLt).2 y = halfWeights (V c main_arg3) (((cfg0.win 3).blk t).view.emb y)
  rw [weights_run V c t h3 y]
  have hy0 : (y 0).val < 1 := (y 0).isLt
  have a0 : ((((cfg0.win 3).blk t).view.emb y) 0).val = t.val / 4 := by
    show win0_3.index t (0 : Fin 3) * 1 + 1 * (y 0).val = t.val / 4
    rw [e7]; omega
  have a2 : (((cfg0.win 3).blk t).view.emb y) 2 = y 2 := Fin.ext (by
    show win0_3.index t (2 : Fin 3) * 64 + 1 * (y 2).val = (y 2).val
    rw [e9]; omega)
  show 0 + ∑ s ∈ Finset.range 4, tileWeights (V c main_arg3) (4 * (t.val / 4) + s) (y 2)
    = 0 + ∑ s ∈ Finset.range 4, tileWeights (V c main_arg3) (4 * ((((cfg0.win 3).blk t).view.emb y) 0).val + s)
        ((((cfg0.win 3).blk t).view.emb y) 2)
  rw [a0, a2]

theorem mem_blk_weights (t : Fin cfg0.N) (i : S2x1x64.Idx) :
    i ∈ ((cfg0.win 3).blk t).view.set ↔ ∀ a : Fin 3, win0_3.index t a * S1x1x64.size a ≤ (i a).val ∧ (i a).val < win0_3.index t a * S1x1x64.size a + S1x1x64.size a := by
  show i ∈ ((View.whole main_v1_1).slice (win0_3.rect t)).set ↔ _
  rw [View.set_slice_whole, Rect.mem_set_unit]
  exact Iff.rfl

/-- THE WEIGHT-SUM ARRAY after the region: the halves' totals. -/
theorem final_weights (c : Dev nD) : (dat0 V c).arrAt 3 cfg0.N = halfWeights (V c main_arg3) :=
  (dat0 V c).arrAt_eq_of_cover 3 _ (flushed_weights V c) fun i => by
    have hi0 : (i 0).val < 2 := (i 0).isLt
    have hi1 : (i 1).val < 1 := (i 1).isLt
    have hi2 : (i 2).val < 64 := (i 2).isLt
    have hN := N8
    refine ⟨⟨4 * (i 0).val + 3, by omega⟩, (flush0_3 _).mpr (by show (4 * (i 0).val + 3) % 4 = 3; omega), ?_⟩
    rw [mem_blk_weights]
    obtain ⟨-, -, -, -, -, -, -, e7, e8, e9⟩ := idx_facts ⟨4 * (i 0).val + 3, by omega⟩
    intro a
    match a with
    | ⟨0, _⟩ => show win0_3.index _ (0 : Fin 3) * 1 ≤ (i 0).val ∧ (i 0).val < win0_3.index _ (0 : Fin 3) * 1 + 1; rw [e7]; dsimp only; omega
    | ⟨1, _⟩ => show win0_3.index _ (1 : Fin 3) * 1 ≤ (i 1).val ∧ (i 1).val < win0_3.index _ (1 : Fin 3) * 1 + 1; rw [e8]; omega
    | ⟨2, _⟩ => show win0_3.index _ (2 : Fin 3) * 64 ≤ (i 2).val ∧ (i 2).val < win0_3.index _ (2 : Fin 3) * 64 + 64; rw [e9]; omega

end Cert.Proto.Arrays

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.ScorePayload.lean ====
/-
  The scoring body's arithmetic, entry by entry, on the extended reals.

  With a tile of queries q ([1024, 1600]) and the prototype table pr ([64, 1600]) the stored entry (r, c) is
      0 − ( (Σ_k q[r,k]² + Σ_k pr[c,k]²) − 2 · Σ_k q[r,k] · pr[c,k] ).
  The query norms are a row sum kept as a column and spread along the rows; the prototype norms are a row sum kept as
  a column, transposed to a row and spread down the columns; the cross term is the product of q with pr transposed
  into a zero accumulator, the bf16 rounding of its operands being the identity on the extended reals.
-/
import proofs.«136503_j31937376813212_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«136503_j31937376813212_2_alg».proof.Proof.LibRowsDot
import proofs.«136503_j31937376813212_2_alg».proof.Proof.LibKeepdimsColumn

set_option maxRecDepth 16384

noncomputable section

namespace Cert.Score.Payload

open Cert.KernelIdeal Cert.KernelIdeal.Gen
open Idealize.ShloMosaic Idealize.ShloMosaic.ValueIdx
open Cert.Gcn.Lib Cert.RowsDot

/-- The printed dimension record of the cross term contracts the second axis of both operands. -/
theorem dims_eq : dot_S1024x1600_S64x1600_S1024x64_1_1_0_0_n_n = DotDims.transposedRhs 1024 1600 64 := rfl

/-- The squared norm of each row of an [a, 1600] array, kept as a column and spread along 64 columns: at (r, c) the
    sum of row r's squares. -/
theorem queryNorm_apply (x : FVec Ideal S1024x1600 .f32) (hr : S1024x1600.Reduces [1] S1024) (hφ : FKind.Formats .f32)
    (hacc : (0x00000000#32 : BitVec 32) = 0x00000000#32) (hc : S1024.ShapeCasts S1024x1) (hb : S1024x1.Broadcasts S1024x64)
    (r : Fin 1024) (c : Fin 64) :
    broadcastTo S1024x64 (shapeCast S1024x1 (multiReduction .add [1] S1024 (mulf x x) 0x00000000#32 hr hφ hacc) hc) hb (ix2 r c)
      = ∑ k : Fin 1600, x (ix2 r k) * x (ix2 r k) :=
  (broadcastTo_a1_ab_apply _ hb r c).trans ((shapeCast_a_a1_apply _ hc r (0 : Fin 1)).trans (rowsum_apply (mulf x x) hr hφ hacc r))

/-- The squared norm of each row of the prototype table, kept as a column, turned into a row and spread down 1024
    rows: at (r, c) the sum of row c's squares. -/
theorem protoNorm_apply (y : FVec Ideal S64x1600 .f32) (hr : S64x1600.Reduces [1] S64) (hφ : FKind.Formats .f32)
    (hacc : (0x00000000#32 : BitVec 32) = 0x00000000#32) (hc : S64.ShapeCasts S64x1) (ht : S64x1.Transposes [1, 0] S1x64)
    (hb : S1x64.Broadcasts S1024x64) (r : Fin 1024) (c : Fin 64) :
    broadcastTo S1024x64 (transpose S1x64 [1, 0] (shapeCast S64x1 (multiReduction .add [1] S64 (mulf y y) 0x00000000#32 hr hφ hacc) hc) ht) hb (ix2 r c)
      = ∑ k : Fin 1600, y (ix2 c k) * y (ix2 c k) :=
  (broadcastTo_1b_ab_apply _ hb r c).trans ((transpose_ix2_apply _ ht (0 : Fin 1) c).trans
    ((shapeCast_a_a1_apply _ hc c (0 : Fin 1)).trans (rowsum_apply (mulf y y) hr hφ hacc c)))

/-- The cross term at (r, c): the sum over the 1600 features of q[r,k] · pr[c,k]. -/
theorem cross_apply (x : FVec Ideal S1024x1600 .f32) (y : FVec Ideal S64x1600 .f32) (r : Fin 1024) (c : Fin 64) :
    matmul dot_S1024x1600_S64x1600_S1024x64_1_1_0_0_n_n none (truncf .bf16 x bitsLt_bf16_f32) (truncf .bf16 y bitsLt_bf16_f32)
        (constant S1024x64 .f32 0x00000000#32) (ix2 r c)
      = ∑ k : Fin 1600, x (ix2 r k) * y (ix2 c k) :=
  matmul_zero_at_of_eq _ dims_eq (truncf .bf16 x bitsLt_bf16_f32 : FVec Ideal S1024x1600 .bf16) (truncf .bf16 y bitsLt_bf16_f32 : FVec Ideal S64x1600 .bf16) r c

/-- The score a tile stores at (r, c). -/
def scoreAt (q : S1024x1600.Idx → EReal) (pr : S64x1600.Idx → EReal) (r : Fin 1024) (c : Fin 64) : EReal :=
  Ideal.ofBits .f32 0x00000000#32 - ((∑ k : Fin 1600, q (ix2 r k) * q (ix2 r k) + ∑ k : Fin 1600, pr (ix2 c k) * pr (ix2 c k))
    - Ideal.ofBits .f32 0x40000000#32 * ∑ k : Fin 1600, q (ix2 r k) * pr (ix2 c k))

theorem score_apply (q : Vec Ideal S1024x1600 .f32) (pr : Vec Ideal S64x1600 .f32) (r : Fin 1024) (c : Fin 64) :
    k1_pay1 q pr (ix2 r c) = scoreAt q pr r c := by
  unfold k1_pay1 scoreAt
  simp only [shapeCast_self]
  exact congrArg₂ (· - ·) rfl (congrArg₂ (· - ·) (congrArg₂ (· + ·) (queryNorm_apply q _ _ _ _ _ r c) (protoNorm_apply pr _ _ _ _ _ _ r c))
    (congrArg₂ (· * ·) rfl (cross_apply q pr r c)))

/-- The same at any entry of a tile. -/
theorem score_block (q : Vec Ideal S1024x1600 .f32) (pr : Vec Ideal S64x1600 .f32) (y : S1024x64.Idx) :
    k1_pay1 q pr y = scoreAt q pr (y 0) (y 1) := by
  obtain ⟨r, c, rfl⟩ : ∃ (r : Fin 1024) (c : Fin 64), y = ix2 r c := ⟨y 0, y 1, eq_ix2 y⟩
  exact score_apply q pr r c

/-- The score of query b against prototype c, over the whole query array. -/
def scoreOf (Q : S4096x1600.Idx → EReal) (pr : S64x1600.Idx → EReal) (b : Fin 4096) (c : Fin 64) : EReal :=
  Ideal.ofBits .f32 0x00000000#32 - ((∑ k : Fin 1600, Q (ix2 b k) * Q (ix2 b k) + ∑ k : Fin 1600, pr (ix2 c k) * pr (ix2 c k))
    - Ideal.ofBits .f32 0x40000000#32 * ∑ k : Fin 1600, Q (ix2 b k) * pr (ix2 c k))

/-- The whole score array. -/
def scoreArr (Q : S4096x1600.Idx → EReal) (pr : S64x1600.Idx → EReal) : S4096x64.Idx → EReal := fun i => scoreOf Q pr (i 0) (i 1)

/-- A tile's score is the whole array's where the tile's query row is the array's and the prototype rows agree. -/
theorem scoreAt_congr (q : S1024x1600.Idx → EReal) (pr pr' : S64x1600.Idx → EReal) (Q : S4096x1600.Idx → EReal)
    (r : Fin 1024) (b : Fin 4096) (c c' : Fin 64) (hq : ∀ k : Fin 1600, q (ix2 r k) = Q (ix2 b k))
    (hp : ∀ k : Fin 1600, pr (ix2 c k) = pr' (ix2 c' k)) : scoreAt q pr r c = scoreOf Q pr' b c' := by
  unfold scoreAt scoreOf
  simp only [hq, hp]

end Cert.Score.Payload

end
-- ==== Proof.ScoreValue.lean ====
/-
  What the scoring region leaves in the result array.

  Its grid is four points; point t scores query rows 1024·t … 1024·t + 1023 against the whole prototype table (the
  table's window never moves) and writes block t of the [4096, 64] result back. Every block is a restriction of one
  whole-array function of the query array and the table as the region finds them, and the four blocks tile the result.
-/
import proofs.«136503_j31937376813212_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws
import proofs.«136503_j31937376813212_2_alg».proof.Proof.ScorePayload
set_option maxRecDepth 16384

noncomputable section

namespace Cert.Score.Value

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

open Cert.Score.Payload

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the four grid points: the query tile and the result block advance with the
    point, the prototype table stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N4 : cfg1.N = 4 := N_1

/-- The query tile at point t, -/
abbrev queriesAt (c : Dev nD) (t : Fin cfg1.N) : Vec Ideal S1024x1600 .f32 := iblk1 V c 0 t
/-- and the prototype table as the body loads it. -/
abbrev protoAt (c : Dev nD) (t : Fin cfg1.N) : Vec Ideal S64x1600 .f32 := iblk1 V c 1 t

/-- WHAT POINT t WRITES BACK is block t of the whole score array. -/
theorem flushed_eq (c : Dev nD) (t : Fin cfg1.N) :
    (dat1 V c).flushed 2 t = ((cfg1.win 2).blk t).view.read (Elt Ideal) (scoreArr (V c main_v0) (V c main_v11)) := by
  show (cfg1.win 2).cut (grid1.coords t) ((dat1 V c).after 2 t) = _
  rw [after1_2]
  unfold out1_2
  rw [View.canon_unit_zero hz2]
  simp only [View.ld_unit_zero (S := S1024x1600) hz2, View.ld_unit_zero (S := S64x1600) hz2]
  obtain ⟨e0, e1, e2, e3, e4, e5⟩ := idx_facts t
  funext y
  show k1_pay1 (queriesAt V c t) (protoAt V c t) y = scoreOf (V c main_v0) (V c main_v11) ((((cfg1.win 2).blk t).view.emb y) 0) ((((cfg1.win 2).blk t).view.emb y) 1)
  refine (score_block (queriesAt V c t) (protoAt V c t) y).trans ?_
  refine scoreAt_congr (queriesAt V c t) (protoAt V c t) (V c main_v11) (V c main_v0) (y 0) _ (y 1) _ (fun k => ?_) (fun k => ?_)
  · unfold queriesAt iblk1
    rw [View.read_apply]
    show V c main_v0 _ = V c main_v0 _
    refine congrArg (V c main_v0) ?_
    funext a; apply Fin.ext
    match a with
    | ⟨0, _⟩ => show win1_0.index t (0 : Fin 2) * 1024 + 1 * (y 0).val = win1_2.index t (0 : Fin 2) * 1024 + 1 * (y 0).val; rw [e0, e4]
    | ⟨1, _⟩ => show win1_0.index t (1 : Fin 2) * 1600 + 1 * k.val = k.val; rw [e1]; omega
  · unfold protoAt iblk1
    rw [View.read_apply]
    show V c main_v11 _ = V c main_v11 _
    refine congrArg (V c main_v11) ?_
    funext a; apply Fin.ext
    match a with
    | ⟨0, _⟩ => show win1_1.index t (0 : Fin 2) * 64 + 1 * (y 1).val = win1_2.index t (1 : Fin 2) * 64 + 1 * (y 1).val; rw [e2, e5]
    | ⟨1, _⟩ => show win1_1.index t (1 : Fin 2) * 1600 + 1 * k.val = k.val; rw [e3]; omega

/-- An index of the result is in point t's block iff each coordinate is in the block's range on its axis. -/
theorem mem_blk (t : Fin cfg1.N) (i : S4096x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v12).slice (win1_2.rect t)).set ↔ _
  rw [View.set_slice_whole, Rect.mem_set_unit]
  exact Iff.rfl

/-- THE RESULT ARRAY after the region: the whole score array of the queries and the table as the region finds them. -/
theorem final (c : Dev nD) : (dat1 V c).arrAt 2 cfg1.N = scoreArr (V c main_v0) (V c main_v11) :=
  (dat1 V c).arrAt_eq_of_cover 2 _ (fun t _ => flushed_eq V c t) fun i => by
    have hi0 : (i 0).val < 4096 := (i 0).isLt
    have hi1 : (i 1).val < 64 := (i 1).isLt
    have hN := N4
    refine ⟨⟨(i 0).val / 1024, by omega⟩, flush1_2 _, ?_⟩
    rw [mem_blk]
    obtain ⟨e0, e1, e2, e3, e4, e5⟩ := idx_facts ⟨(i 0).val / 1024, by omega⟩
    intro a
    match a with
    | ⟨0, _⟩ => show win1_2.index _ (0 : Fin 2) * 1024 ≤ (i 0).val ∧ (i 0).val < win1_2.index _ (0 : Fin 2) * 1024 + 1024; rw [e4]; dsimp only; omega
    | ⟨1, _⟩ => show win1_2.index _ (1 : Fin 2) * 64 ≤ (i 1).val ∧ (i 1).val < win1_2.index _ (1 : Fin 2) * 64 + 64; rw [e5]; omega

end Cert.Score.Value

end
-- ==== Proof.HostMid.lean ====
/-
  What the two regions find when they are entered.

  The accumulating region finds the samples and the weights as launched (the one host operation before it, a reshape
  of the queries, writes neither). The scoring region finds the queries as that reshape of the launched query
  argument, and the prototype table as the host operations between the regions compute it from the support samples
  (as launched) and the two arrays the accumulating region left:
      proto = (Σ_k support[·,k,·] + Σ_p weighted[p]) / spread(16 + recast(Σ_p weights[p])).
-/
import proofs.«136503_j31937376813212_2_alg».proof.Proof.Gen.KernelIdeal.Frame
import Idealize.ShloMosaic.Lib.StableHlo.Run

set_option maxRecDepth 16384

noncomputable section

namespace Cert.KernelIdeal.Mid

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The prototype table from the support samples and the two per-half arrays: the support's sum over the shots plus
    the halves' weighted sums, divided entry by entry by 16 plus the halves' weight sums, spread along the features. -/
def protoOf (sup : (⟨S64x16x1600, .f32⟩ : BufTy).Contents (Elt F)) (pw : (⟨S2x64x1600, .f32⟩ : BufTy).Contents (Elt F))
    (ps : (⟨S2x1x64, .f32⟩ : BufTy).Contents (Elt F)) : (⟨S64x1600, .f32⟩ : BufTy).Contents (Elt F) :=
  Host.divf
    (addf (Host.reduceAdd sup (constant S_ .f32 0x00000000#32) reducesTo_S64x16x1600_S64x1600_d1 h_S_)
      (Host.reduceAdd pw (constant S_ .f32 0x00000000#32) reducesTo_S2x64x1600_S64x1600_d0 h_S_))
    (broadcastInDim S64x1600 ![0, 1] bcast_S64x1_S64x1600_0_1 (broadcastInDim S64x1 ![0] bcast_S64_S64x1_0
      (addf (broadcastInDim S64 ![] bcast_S_S64 (constant S_ .f32 0x41800000#32))
        (shapeCast S64 (Host.reduceAdd ps (constant S_ .f32 0x00000000#32) reducesTo_S2x1x64_S1x64_d0 h_S_) shapeCasts_S1x64_S64))))

variable (m : (ℓ : Loc nD τ sig) → Buf (Elt F) ℓ) (ρ : Dev nD → PrngReg)

/-- The table the scoring region finds is that function of the buffers the accumulating region's exit left. -/
theorem proto_after (c : Dev nD) : V3 m ρ c main_v11
    = protoOf (W2 m ρ c (Proc.devRef .tc main_arg1)) (W2 m ρ c (Proc.devRef .tc main_v1_0)) (W2 m ρ c (Proc.devRef .tc main_v1_1)) := by
  show StableHlo.after hostOps1 (W2 m ρ c) (Proc.devRef .tc main_v11) = _
  generalize W2 m ρ c = W
  unfold protoOf
  after_results
  rfl

/-- No host operation and no region writes the support samples before the scoring region. -/
theorem support_kept (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The accumulating region finds the samples as launched, -/
theorem samples_entry (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- and the weights. -/
theorem weights_entry (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The scoring region finds the queries as the reshape of the launched query argument. -/
theorem queries_entry (c : Dev nD) : V3 m ρ c main_v0
    = shapeCast S4096x1600 (m ((c : Thread nD τ).loc main_arg0)) shapeCasts_S4096x1600x1x1_S4096x1600 :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := W2_of_ne m ρ c main_v0 (by decide)
    _ = shapeCast S4096x1600 (m ((c : Thread nD τ).loc main_arg0)) shapeCasts_S4096x1600x1x1_S4096x1600 := by
        show StableHlo.after hostOps0 (W0 m ρ c) (Proc.devRef .tc main_v0) = _
        after_results
        rfl

end Cert.KernelIdeal.Mid

end
-- ==== Proof.KernelValue.lean ====
/-
  The idealized kernel's result as one function of its four arguments.

  The result array is the scoring region's whole score array of what that region finds: the queries reshaped, and the
  prototype table the host operations build from the support samples and the two arrays the accumulating region left —
  the halves' weighted sums and weight sums of the samples and weights as launched.
-/
import proofs.«136503_j31937376813212_2_alg».proof.Proof.RunNamed
import proofs.«136503_j31937376813212_2_alg».proof.Proof.ProtoArrays
import proofs.«136503_j31937376813212_2_alg».proof.Proof.ScoreValue
import proofs.«136503_j31937376813212_2_alg».proof.Proof.HostMid

set_option maxRecDepth 16384

noncomputable section

namespace Cert.KernelIdeal.Whole

open Cert.KernelIdeal Cert.KernelIdeal.Gen
open Idealize.ShloMosaic Idealize.ShloMosaic.TcCoe Idealize.SL.Sem
open Cert.Proto.Value Cert.Score.Payload Cert.KernelIdeal.Mid

variable (m : (ℓ : Loc nD τ sig) → Buf (Elt Ideal) ℓ) (ρ : Dev nD → PrngReg)

/-- The scores of the reshaped queries against the prototype table built from the halves' sums. -/
def result (c : Dev nD) : Buf (Elt Ideal) ((c.tc : Thread nD τ).loc main_v12) :=
  scoreArr (shapeCast S4096x1600 (m ((c.tc : Thread nD τ).loc main_arg0)) shapeCasts_S4096x1600x1x1_S4096x1600)
    (protoOf (F := Ideal) (m ((c.tc : Thread nD τ).loc main_arg1))
      (halfWeighted (m ((c.tc : Thread nD τ).loc main_arg2)) (m ((c.tc : Thread nD τ).loc main_arg3)))
      (halfWeights (m ((c.tc : Thread nD τ).loc main_arg3))))

/-- What the scoring region's write-backs leave is that function of the launched arguments. -/
theorem final (c : Dev nD) : (dat1 (V3 m ρ) c).arrAt 2 cfg1.N = result m c := by
  have hw : W2 m ρ c (Proc.devRef .tc main_v1_0)
      = halfWeighted (m ((c.tc : Thread nD τ).loc main_arg2)) (m ((c.tc : Thread nD τ).loc main_arg3)) := by
    refine (W2_arr m ρ c 2).trans ((Cert.Proto.Arrays.final_weighted (V1 m ρ) c).trans ?_)
    rw [samples_entry m ρ c, weights_entry m ρ c]
  have hs : W2 m ρ c (Proc.devRef .tc main_v1_1) = halfWeights (m ((c.tc : Thread nD τ).loc main_arg3)) := by
    refine (W2_arr m ρ c 3).trans ((Cert.Proto.Arrays.final_weights (V1 m ρ) c).trans ?_)
    rw [weights_entry m ρ c]
  unfold result
  rw [Cert.Score.Value.final (V3 m ρ) c, queries_entry m ρ c, proto_after m ρ c, support_kept m ρ c, hw, hs]

/-- The run: the result array at that function, the arguments as launched. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩) (Cert.KernelIdeal.Named.run_named m ρ)

end Cert.KernelIdeal.Whole

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.BlockSums.lean ====
/-
  A sum over 8192 consecutive entries taken as 2 halves of 4 tiles of 1024, each half started from zero.

  Over any additive commutative monoid: the total of the two halves' totals, each "zero plus its four tiles", is the
  plain sum over all 8192 entries. Only commutativity and associativity of the sum and 0 + x = x are used, so this
  holds on the extended reals without any finiteness.
-/
import Mathlib.Algebra.BigOperators.Fin
import proofs.«136503_j31937376813212_2_alg».proof.Proof.LibIdxSums

open scoped BigOperators

namespace Cert.BlockSums

open Cert.LibIdxSums

variable {M : Type*} [AddCommMonoid M]

/-- Tile n of a family over 8192 entries: the sum of entries 1024·n … 1024·n + 1023; nothing past the eight tiles. -/
def tile (f : Fin 8192 → M) (n : ℕ) : M :=
  if h : n < 8 then ∑ k : Fin 1024, f ⟨n * 1024 + k.val, by have := k.isLt; omega⟩ else 0

/-- The two halves' totals, each zero plus its four tiles in order, add up to the sum of all entries. -/
theorem halves_total (f : Fin 8192 → M) :
    ∑ p : Fin 2, (0 + ∑ s ∈ Finset.range 4, tile f (4 * p.val + s)) = ∑ K : Fin 8192, f K := by
  have h1 : ∑ K : Fin 8192, f K = ∑ t : Fin 8, ∑ b : Fin 1024, f ⟨t.val * 1024 + b.val, block_lt t b⟩ :=
    sum_fin_blocks 8 1024 f
  have h2 : ∑ t : Fin 8, ∑ b : Fin 1024, f ⟨t.val * 1024 + b.val, block_lt t b⟩
      = ∑ p : Fin 2, ∑ s : Fin 4, ∑ b : Fin 1024, f ⟨(p.val * 4 + s.val) * 1024 + b.val, block_lt (⟨p.val * 4 + s.val, block_lt p s⟩ : Fin 8) b⟩ :=
    sum_fin_blocks 2 4 (fun t : Fin 8 => ∑ b : Fin 1024, f ⟨t.val * 1024 + b.val, block_lt t b⟩)
  rw [h1, h2]
  refine Finset.sum_congr rfl fun p _ => ?_
  rw [zero_add, Finset.sum_range]
  refine Finset.sum_congr rfl fun s _ => ?_
  have hlt : 4 * p.val + s.val < 8 := by have := p.isLt; have := s.isLt; omega
  unfold tile
  rw [dif_pos hlt]
  refine Finset.sum_congr rfl fun k _ => congrArg f (Fin.ext ?_)
  show (4 * p.val + s.val) * 1024 + k.val = (p.val * 4 + s.val) * 1024 + k.val
  omega

end Cert.BlockSums
-- ==== Proof.RefBridge.lean ====
/-
  The reference's stages against the kernel's pieces, on the extended reals.

  (1) The reference's weights-by-samples product over all 8192 rows is the sum over the two halves of the halves'
      weighted sums, and its column sums of the weights are the sum over the two halves of the halves' weight sums:
      a sum over 8192 rows regrouped as 2 halves of 4 tiles of 1024, each half started from zero.
  (2) Hence the prototype table the host operations between the regions build from the halves' arrays is the
      reference's prototype table: the remaining operations are the same on both sides.
  (3) The reference's score of a query array Q against a table P is, entry by entry, the kernel's:
      −((0 + Σ Q² + (0 + Σ P²)) − 2·Σ Q·P) = 0 − ((Σ Q² + Σ P²) − 2·Σ Q·P).
-/
import proofs.«136503_j31937376813212_2_alg».proof.Proof.Gen.ReferenceIdeal.Read
import proofs.«136503_j31937376813212_2_alg».proof.Proof.ProtoValue
import proofs.«136503_j31937376813212_2_alg».proof.Proof.ScorePayload
import proofs.«136503_j31937376813212_2_alg».proof.Proof.HostMid
import proofs.«136503_j31937376813212_2_alg».proof.Proof.BlockSums
import Idealize.ShloMosaic.Lib.ValueLayout
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Proto.Value Cert.Score.Payload Cert.KernelIdeal.Mid

/-- The word 0x00000000 at a rank-0 constant's one index is the extended real 0. -/
theorem zero_const (j : S_.Idx) : (constant (F := Ideal) S_ .f32 0x00000000#32) j = 0 := Ideal.ofBits_zero_f32

/-- (1a) Summing the halves' weighted sums over the halves gives the reference's product over all rows. -/
theorem weighted_total (S : S8192x1600.Idx → EReal) (Wt : S8192x64.Idx → EReal) :
    Host.reduceAdd (F := Ideal) (halfWeighted S Wt) (constant (F := Ideal) S_ .f32 0x00000000#32) reducesTo_S2x64x1600_S64x1600_d0 h_S_
      = Cert.ReferenceIdeal.Read.val_main_v1 (F := Ideal) S Wt := by
  funext i
  rw [Cert.ReferenceIdeal.Read.val_main_v1_apply]
  simp only [Host.reduceAdd, Ideal.hostReduceAdd_def]
  rw [Ideal.hostReduceAdd_single reducesTo_S2x64x1600_S64x1600_d0 (by decide), zero_const, zero_add]
  have key := Cert.BlockSums.halves_total (fun K : Fin 8192 => Wt (ix2 K (i 0)) * S (ix2 K (i 1)))
  refine Eq.trans ?_ (key.trans ?_)
  · exact Finset.sum_congr rfl fun p _ => rfl
  · exact Finset.sum_congr rfl fun K _ => congrArg₂ (· * ·)
      (congrArg Wt (funext fun a => Fin.ext (by match a with | ⟨0, _⟩ => rfl | ⟨1, _⟩ => rfl)))
      (congrArg S (funext fun a => Fin.ext (by match a with | ⟨0, _⟩ => rfl | ⟨1, _⟩ => rfl)))

/-- (1b) Summing the halves' weight sums over the halves, recast to a vector, gives the reference's column sums. -/
theorem weights_total (Wt : S8192x64.Idx → EReal) :
    shapeCast S64 (Host.reduceAdd (F := Ideal) (halfWeights Wt) (constant (F := Ideal) S_ .f32 0x00000000#32) reducesTo_S2x1x64_S1x64_d0 h_S_) shapeCasts_S1x64_S64
      = Cert.ReferenceIdeal.Read.val_main_v2 (F := Ideal) Wt := by
  funext i
  obtain ⟨c, rfl⟩ : ∃ c : Fin 64, i = ix1 c := ⟨i 0, eq_ix1 i⟩
  rw [Cert.ReferenceIdeal.Read.val_main_v2_apply]
  refine (shapeCast_1a_a_apply _ _ c).trans ?_
  simp only [Host.reduceAdd, Ideal.hostReduceAdd_def]
  rw [Ideal.hostReduceAdd_single reducesTo_S2x1x64_S1x64_d0 (by decide)]
  refine congrArg₂ (· + ·) rfl ?_
  have key := Cert.BlockSums.halves_total (fun K : Fin 8192 => Wt (ix2 K c))
  refine Eq.trans ?_ (key.trans ?_)
  · exact Finset.sum_congr rfl fun p _ => rfl
  · exact Finset.sum_congr rfl fun K _ =>
      congrArg Wt (funext fun a => Fin.ext (by match a with | ⟨0, _⟩ => rfl | ⟨1, _⟩ => rfl))

/-- (2) The table built between the regions from the halves' arrays is the reference's prototype table. -/
theorem proto_eq (x1 : S64x16x1600.Idx → EReal) (S : S8192x1600.Idx → EReal) (Wt : S8192x64.Idx → EReal) :
    protoOf (F := Ideal) x1 (halfWeighted S Wt) (halfWeights Wt) = Cert.ReferenceIdeal.Read.val_main_v9 (F := Ideal) x1 S Wt := by
  unfold protoOf
  rw [weighted_total, weights_total]
  rfl

/-- (3) The reference's last stage is the whole score array of its reshaped queries and its prototype table. -/
theorem ref_score (x0 : S4096x1600x1x1.Idx → EReal) (x1 : S64x16x1600.Idx → EReal) (S : S8192x1600.Idx → EReal) (Wt : S8192x64.Idx → EReal) :
    Cert.ReferenceIdeal.Read.val_main_v24 (F := Ideal) x0 x1 S Wt
      = scoreArr (Cert.ReferenceIdeal.Read.val_main_v0 (F := Ideal) x0) (Cert.ReferenceIdeal.Read.val_main_v9 (F := Ideal) x1 S Wt) := by
  funext i
  have eq : ∀ k : Fin 1600, Cert.ReferenceIdeal.Read.idx_main_v11 (Cert.ReferenceIdeal.Read.idx_main_v16 (Cert.ReferenceIdeal.Read.idx_main_v18 i)) k = ix2 (i 0) k :=
    fun k => funext fun a => Fin.ext (by match a with | ⟨0, _⟩ => rfl | ⟨1, _⟩ => rfl)
  have ep : ∀ k : Fin 1600, Cert.ReferenceIdeal.Read.idx_main_v13 (Cert.ReferenceIdeal.Read.idx_main_v17 (Cert.ReferenceIdeal.Read.idx_main_v19 i)) k = ix2 (i 1) k :=
    fun k => funext fun a => Fin.ext (by match a with | ⟨0, _⟩ => rfl | ⟨1, _⟩ => rfl)
  have el : ∀ k : Fin 1600, Cert.ReferenceIdeal.Read.lidx_main_v15 i k = ix2 (i 0) k :=
    fun k => funext fun a => Fin.ext (by match a with | ⟨0, _⟩ => rfl | ⟨1, _⟩ => rfl)
  have er : ∀ k : Fin 1600, Cert.ReferenceIdeal.Read.idx_main_v14 (Cert.ReferenceIdeal.Read.ridx_main_v15 i k) = ix2 (i 1) k :=
    fun k => funext fun a => Fin.ext (by match a with | ⟨0, _⟩ => rfl | ⟨1, _⟩ => rfl)
  rw [Cert.ReferenceIdeal.Read.val_main_v24_apply, Cert.ReferenceIdeal.Read.val_main_v23_apply, Cert.ReferenceIdeal.Read.val_main_v20_apply,
    Cert.ReferenceIdeal.Read.val_main_v22_apply, Cert.ReferenceIdeal.Read.val_main_v18_apply, Cert.ReferenceIdeal.Read.val_main_v16_apply,
    Cert.ReferenceIdeal.Read.val_main_v11_apply, Cert.ReferenceIdeal.Read.val_main_v19_apply, Cert.ReferenceIdeal.Read.val_main_v17_apply,
    Cert.ReferenceIdeal.Read.val_main_v13_apply, Cert.ReferenceIdeal.Read.val_main_v21_apply, Cert.ReferenceIdeal.Read.val_main_v15_apply]
  simp only [Cert.ReferenceIdeal.Read.val_main_v10_apply, Cert.ReferenceIdeal.Read.val_main_v12_apply, Cert.ReferenceIdeal.Read.val_main_v14_apply,
    Cert.ReferenceIdeal.Read.val_main_cst_2_apply, Cert.ReferenceIdeal.Read.val_main_cst_3_apply, Cert.ReferenceIdeal.Read.val_main_cst_4_apply,
    eq, ep, el, er, Ideal.hostNegf_def, Ideal.negf_def, Ideal.subf_def, Ideal.addf_def, Ideal.mulf_def, Ideal.ofBits_def,
    Ideal.ofBits_zero_f32, zero_add]
  unfold scoreArr scoreOf
  rw [Ideal.ofBits_zero_f32, zero_sub]
  rfl

end Cert.Bridge

end
-- ==== Proof.lean ====
/-
  Scores of 4096 queries against 64 class prototypes, −‖q_i − p_j‖² expanded as −(‖q_i‖² + ‖p_j‖² − 2 q_i·p_j), where
  p_j = (Σ_k support[j,k] + Σ_u w[u,j]·x[u]) / (16 + Σ_u w[u,j]).

  The kernel builds the two sums over the 8192 unlabeled samples in a first region, as 2 halves of 4 tiles of 1024
  rows each, every half started from zero; host operations add the halves, the support sum and the constant 16 and
  divide; a second region scores the queries tile by tile. The reference does the same with one product and one sum
  over all 8192 rows. On the extended reals the two agree entry by entry: a sum over 8192 rows is the sum of the
  halves' totals (commutativity and associativity of the sum, 0 + x = x), the products into zero accumulators and the
  lane sums are plain sums, the bf16 roundings are the identity, and 0 − x = −x. Nothing needs the inputs finite.

  Frames: the two kernel programs' by their generated frame certificates, the reference's by its generated run. The
  idealization rewrote nothing, so nothing is to be preserved.
-/
import proofs.«136503_j31937376813212_2_alg».proof.Defs
import proofs.«136503_j31937376813212_2_alg».proof.Proof.Gen.Kernel
import proofs.«136503_j31937376813212_2_alg».proof.Proof.Gen.Kernel.Frame
import proofs.«136503_j31937376813212_2_alg».proof.Proof.Gen.KernelIdeal
import proofs.«136503_j31937376813212_2_alg».proof.Proof.Gen.KernelIdeal.Frame
import proofs.«136503_j31937376813212_2_alg».proof.Proof.Gen.ReferenceIdeal
import proofs.«136503_j31937376813212_2_alg».proof.Proof.Gen.ReferenceIdeal.Run
import proofs.«136503_j31937376813212_2_alg».proof.Proof.Gen.ReferenceIdeal.Read
import proofs.«136503_j31937376813212_2_alg».proof.Proof.Gen.Pre_finite_inputs
import proofs.«136503_j31937376813212_2_alg».proof.Proof.KernelValue
import proofs.«136503_j31937376813212_2_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scores of the reshaped queries against one prototype table: the kernel's table is built
    from the halves' sums, the reference's from sums over all rows, and those are equal. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  refine (Cert.Bridge.ref_score _ _ _ _).trans ?_
  show _ = Cert.KernelIdeal.Whole.result m c
  unfold Cert.KernelIdeal.Whole.result
  rw [Cert.Bridge.proto_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
